-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2x256 : Shape := ⟨3, ![65536, 2, 256]⟩
abbrev S256x256 : Shape := ⟨2, ![256, 256]⟩
abbrev S_ : Shape := ⟨0, ![]⟩

class Facts : Prop where
  bcast_S_S65536x2x256 : S_.BroadcastsInDim S65536x2x256 (![] : Fin 0 → Fin S65536x2x256.rank)
  reducesTo_S65536x2x256_S_d0_1_2 : S65536x2x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x2x256 .f32) (main_arg1 : FVec F S256x256 .f32) (main_arg2 : FVec F S256x256 .f32) : IVec S_ 1 :=
  let main_v0 : FVec F S65536x2x256 .f32 := Host.absf main_arg0
  let main_cst : FVec F S_ .f32 := constant S_ .f32 0x7F800000#32
  let main_v1 : FVec F S65536x2x256 .f32 := broadcastInDim S65536x2x256 ![] bcast_S_S65536x2x256 main_cst
  let main_v2 : IVec S65536x2x256 1 := cmpf .olt main_v0 main_v1
  let main_c : IVec S_ 1 := constantI S_ 1 1#1
  let main_v3 : IVec S_ 1 := (fun x v => Host.reduce IntOp.andi x v reducesTo_S65536x2x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S65536x2x256 : Shape := ⟨3, ![65536, 2, 256]⟩
abbrev S256x256 : Shape := ⟨2, ![256, 256]⟩
abbrev S256x512 : Shape := ⟨2, ![256, 512]⟩
abbrev S512x512 : Shape := ⟨2, ![512, 512]⟩
abbrev S65536x512 : Shape := ⟨2, ![65536, 512]⟩
abbrev S2048x512 : Shape := ⟨2, ![2048, 512]⟩
abbrev S65536x512x1 : Shape := ⟨3, ![65536, 512, 1]⟩

abbrev nBuf : Space → Nat
  | .hbm => 13
  | .vmem => 5
  | .smem => 0
  | _ => 0

abbrev bufTy : (tb : Table) → Fin (tcTables nBuf tb) → BufTy
  | .hbm, ⟨0, _⟩ => ⟨S65536x2x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x512, .f32⟩
  | .hbm, ⟨6, _⟩ => ⟨S256x256, .f32⟩
  | .hbm, ⟨7, _⟩ => ⟨S256x512, .f32⟩
  | .hbm, ⟨8, _⟩ => ⟨S512x512, .f32⟩
  | .hbm, ⟨9, _⟩ => ⟨S512x512, .bf16⟩
  | .hbm, ⟨10, _⟩ => ⟨S65536x512, .f32⟩
  | .hbm, ⟨11, _⟩ => ⟨S65536x512, .f32⟩
  | .hbm, ⟨12, _⟩ => ⟨S65536x512x1, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S65536x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  concatenates_S256x256_S256x256_S256x512_d1 : Shape.Concatenates [S256x256, S256x256] S256x512 1
  concatenates_S256x512_S256x512_S512x512_d0 : Shape.Concatenates [S256x512, S256x512] S512x512 0
  bitsLt_bf16_f32 : FTy.bits .bf16 < FTy.bits .f32
  shapeCasts_S65536x2x256_S65536x512 : S65536x2x256.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S65536x512_S65536x512x1_0_1 : S65536x512.BroadcastsInDim S65536x512x1 (![0, 1] : Fin 2 → Fin S65536x512x1.rank)
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x2x256 : Shape := ⟨3, ![65536, 2, 256]⟩
abbrev S256x256 : Shape := ⟨2, ![256, 256]⟩
abbrev S65536x1x256 : Shape := ⟨3, ![65536, 1, 256]⟩
abbrev S65536x256 : Shape := ⟨2, ![65536, 256]⟩
abbrev S65536x512 : Shape := ⟨2, ![65536, 512]⟩
abbrev S65536x512x1 : Shape := ⟨3, ![65536, 512, 1]⟩

abbrev nBuf : Space → Nat
  | .hbm => 15
  | .vmem => 0
  | .smem => 0
  | _ => 0

abbrev bufTy : (tb : Table) → Fin (tcTables nBuf tb) → BufTy
  | .hbm, ⟨0, _⟩ => ⟨S65536x2x256, .f32⟩
  | .hbm, ⟨1, _⟩ => ⟨S256x256, .f32⟩
  | .hbm, ⟨2, _⟩ => ⟨S256x256, .f32⟩
  | .hbm, ⟨3, _⟩ => ⟨S65536x1x256, .f32⟩
  | .hbm, ⟨4, _⟩ => ⟨S65536x256, .f32⟩
  | .hbm, ⟨5, _⟩ => ⟨S65536x1x256, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S65536x512, .f32⟩
  | .hbm, ⟨14, _⟩ => ⟨S65536x512x1, .f32⟩
  | _, _ => ⟨S65536x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S65536x2x256_S65536x1x256_0_0_0 : S65536x2x256.Slices ![0, 0, 0] S65536x1x256
  shapeCasts_S65536x1x256_S65536x256 : S65536x1x256.ShapeCasts S65536x256
  slices_S65536x2x256_S65536x1x256_0_1_0 : S65536x2x256.Slices ![0, 1, 0] S65536x1x256
  concatenates_S65536x256_S65536x256_S65536x512_d1 : Shape.Concatenates [S65536x256, S65536x256] S65536x512 1
  bcast_S65536x512_S65536x512x1_0_1 : S65536x512.BroadcastsInDim S65536x512x1 (![0, 1] : Fin 2 → Fin S65536x512x1.rank)
  dot_S65536x256_S256x256_S65536x256_1_1_0_0_n_n_wf : DotDims.WF S65536x256 S256x256 S65536x256 [1] [1] [0] [0] [] []

variable [Facts₀]

def dot_S65536x256_S256x256_S65536x256_1_1_0_0_n_n : DotDims S65536x256 S256x256 S65536x256 where
  lhsContracting := [1]
  rhsContracting := [1]
  lhsNonContracting := [0]
  rhsNonContracting := [0]
  lhsBatch := []
  rhsBatch := []
  wf := dot_S65536x256_S256x256_S65536x256_1_1_0_0_n_n_wf

class Facts : Prop extends Facts₀ where

variable [Facts]
-- ==== Proof.DftLaw.lean ====
/-
  The discrete Fourier transform as two real matrix products, and the one law that joins its two spellings.

  A row of the input is a pair of real vectors (xr, xi) of length 256 — the real and the imaginary channel. With the
  cosine table C and the (already negated) sine table S, both 256 × 256, the transform of the row is, at frequency q,
      re q = Σ_n xr n · C q n − Σ_n xi n · S q n,        im q = Σ_n xi n · C q n + Σ_n xr n · S q n,
  laid out as one row of length 512, the real parts first. `dft` below is that array.

  The same numbers come out of ONE product of the flattened row (xr ++ xi, length 512) with the 512 × 512 block matrix
      [  Cᵀ   Sᵀ ]
      [ −Sᵀ   Cᵀ ] :
  a sum over 512 terms splits into its two halves (`sum_halves`); in the lower half of a real-part column the factor is
  −S, and the sign leaves the sum (`sum_mul_neg`). That last step is where the extended reals need care: a negation
  distributes over a finite sum only when no two terms are opposite infinities, so it is stated for real entries.
-/
import Idealize.ShloMosaic.PureOps.Ideal
import Idealize.ShloMosaic.Lib.ValueIdx

noncomputable section

open scoped BigOperators

namespace Cert.DftLaw

open Idealize.ShloMosaic Idealize.ShloMosaic.ValueIdx

/-- An extended real that is a real number. -/
def IsReal (a : EReal) : Prop := ∃ r : ℝ, a = (r : EReal)

/-- A finite sum of real numbers, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real factors, the sign of the second factor leaves a sum of products. -/
theorem sum_mul_neg {ι : Type*} [Fintype ι] (u v : ι → EReal) (hu : ∀ i, IsReal (u i)) (hv : ∀ i, IsReal (v i)) :
    ∑ i, u i * (-v i) = -∑ i, u i * v i := by
  choose u' hu' using hu
  choose v' hv' using hv
  have h1 : ∀ i, u i * (-v i) = ((u' i * (-v' i) : ℝ) : EReal) := fun i => by
    rw [hu', hv', ← EReal.coe_neg, ← EReal.coe_mul]
  have h2 : ∀ i, u i * v i = ((u' i * v' i : ℝ) : EReal) := fun i => by
    rw [hu', hv', ← EReal.coe_mul]
  simp only [h1, h2]
  rw [← coe_sum, ← coe_sum, ← EReal.coe_neg]
  congr 1
  rw [← Finset.sum_neg_distrib]
  exact Finset.sum_congr rfl fun i _ => by ring

/-- Position n of the first half of a row of 512. -/
abbrev lo (n : Fin 256) : Fin 512 := ⟨n.val, by have := n.isLt; omega⟩
/-- Position n of the second half. -/
abbrev hi (n : Fin 256) : Fin 512 := ⟨256 + n.val, by have := n.isLt; omega⟩

/-- A sum over 512 terms is the sum of its first 256 and of its last 256. -/
theorem sum_halves {M : Type*} [AddCommMonoid M] (f : Fin 512 → M) :
    ∑ k : Fin 512, f k = (∑ n : Fin 256, f (lo n)) + ∑ n : Fin 256, f (hi n) := by
  exact Fin.sum_univ_add (a := 256) (b := 256) (fun k : Fin (256 + 256) => f ⟨k.val, k.isLt⟩)

/-- A real-part column: the upper half of the flattened row meets C, the lower half −S. -/
theorem real_column (X W : Fin 512 → EReal) (xr xi cq sq : Fin 256 → EReal)
    (hX0 : ∀ n : Fin 256, X (lo n) = xr n)
    (hX1 : ∀ n : Fin 256, X (hi n) = xi n)
    (hW0 : ∀ n : Fin 256, W (lo n) = cq n)
    (hW1 : ∀ n : Fin 256, W (hi n) = -sq n)
    (hxi : ∀ n, IsReal (xi n)) (hsq : ∀ n, IsReal (sq n)) :
    ∑ k : Fin 512, X k * W k = (∑ n : Fin 256, xr n * cq n) - ∑ n : Fin 256, xi n * sq n := by
  rw [sum_halves]
  simp only [hX0, hX1, hW0, hW1]
  rw [sum_mul_neg xi sq hxi hsq, sub_eq_add_neg]

/-- An imaginary-part column: the upper half meets S, the lower half C; the two sums only change places. -/
theorem imag_column (X W : Fin 512 → EReal) (xr xi cq sq : Fin 256 → EReal)
    (hX0 : ∀ n : Fin 256, X (lo n) = xr n)
    (hX1 : ∀ n : Fin 256, X (hi n) = xi n)
    (hW0 : ∀ n : Fin 256, W (lo n) = sq n)
    (hW1 : ∀ n : Fin 256, W (hi n) = cq n) :
    ∑ k : Fin 512, X k * W k = (∑ n : Fin 256, xi n * cq n) + ∑ n : Fin 256, xr n * sq n := by
  rw [sum_halves]
  simp only [hX0, hX1, hW0, hW1]
  exact add_comm _ _

/-- The transform of every row, as one [65536, 512] array: at column j < 256 the real part at frequency j, at column
    256 + q the imaginary part at frequency q. -/
def dft (x : (⟨3, ![65536, 2, 256]⟩ : Shape).Idx → EReal) (cs sn : (⟨2, ![256, 256]⟩ : Shape).Idx → EReal) :
    (⟨2, ![65536, 512]⟩ : Shape).Idx → EReal := fun i =>
  let b : Fin 65536 := ⟨(i 0).val, (i 0).isLt⟩
  if h : (i 1).val < 256 then
    (∑ n : Fin 256, x (ix3 b (0 : Fin 2) n) * cs (ix2 (⟨(i 1).val, h⟩ : Fin 256) n))
      - ∑ n : Fin 256, x (ix3 b (1 : Fin 2) n) * sn (ix2 (⟨(i 1).val, h⟩ : Fin 256) n)
  else
    (∑ n : Fin 256, x (ix3 b (1 : Fin 2) n) * cs (ix2 (⟨(i 1).val - 256, by have : (i 1).val < 512 := (i 1).isLt; omega⟩ : Fin 256) n))
      + ∑ n : Fin 256, x (ix3 b (0 : Fin 2) n) * sn (ix2 (⟨(i 1).val - 256, by have : (i 1).val < 512 := (i 1).isLt; omega⟩ : Fin 256) n)

end Cert.DftLaw

end
-- ==== Proof.Prefix.lean ====
/-
  What the host lines before the kernel leave in the two arrays the kernel reads.

  The weights: the two tables are transposed, laid side by side as [Cᵀ | Sᵀ] and [−Sᵀ | Cᵀ], stacked, and narrowed to
  bf16 (the identity on ideal values). Read at a row and a column, each given by its half and its position in the half:
      (lo n, lo q) ↦ C q n      (lo n, hi q) ↦ S q n      (hi n, lo q) ↦ −S q n      (hi n, hi q) ↦ C q n.
  The rows: the [65536, 2, 256] input reshaped to [65536, 512], so that position lo n of row b is the real channel's
  entry n and position hi n the imaginary channel's.
-/
import proofs.«137486_j31258771980926_2_alg».proof.Proof.Gen.KernelIdeal.Frame
import proofs.«137486_j31258771980926_2_alg».proof.Proof.DftLaw
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.DftLaw

variable {F : FTy → Type} [FloatOps F]

/-- The block matrix of weights, from the cosine table and the sine table. -/
def weights (cs sn : FVec F S256x256 .f32) : FVec F S512x512 .bf16 :=
  truncf .bf16 (concatenate S512x512 0
    [⟨S256x512, concatenate S256x512 1
        [⟨S256x256, transpose S256x256 [1, 0] cs transposes_S256x256_S256x256_1_0⟩,
         ⟨S256x256, transpose S256x256 [1, 0] sn transposes_S256x256_S256x256_1_0⟩] concatenates_S256x256_S256x256_S256x512_d1⟩,
     ⟨S256x512, concatenate S256x512 1
        [⟨S256x256, Host.negf (transpose S256x256 [1, 0] sn transposes_S256x256_S256x256_1_0)⟩,
         ⟨S256x256, transpose S256x256 [1, 0] cs transposes_S256x256_S256x256_1_0⟩] concatenates_S256x256_S256x256_S256x512_d1⟩]
    concatenates_S256x512_S256x512_S512x512_d0) bitsLt_bf16_f32

/-- The input with its two channels laid end to end in each row. -/
def flatRows (x : FVec F S65536x2x256 .f32) : FVec F S65536x512 .f32 :=
  shapeCast S65536x512 x shapeCasts_S65536x2x256_S65536x512

variable (m : (ℓ : Loc nD τ sig) → Buf (Elt F) ℓ)

/-- The kernel's second operand is the block matrix of the two argument tables. -/
theorem V_weights (c : Dev nD) :
    V m c main_v6 = weights (F := F) (m ((c : Thread nD τ).loc main_arg1)) (m ((c : Thread nD τ).loc main_arg2)) := by
  show StableHlo.after hostOps0 (fun b => m (c, b)) (Proc.devRef .tc main_v6) = _
  after_results
  rfl

/-- The kernel's first operand is the input with each row's channels laid end to end. -/
theorem V_rows (c : Dev nD) : V m c main_v7 = flatRows (F := F) (m ((c : Thread nD τ).loc main_arg0)) := by
  show StableHlo.after hostOps0 (fun b => m (c, b)) (Proc.devRef .tc main_v7) = _
  after_results
  rfl

/-! ## The rows at an index -/

theorem flatRows_lo (x : FVec Ideal S65536x2x256 .f32) (b : Fin 65536) (n : Fin 256) :
    flatRows x (ix2 b (lo n)) = x (ix3 b (0 : Fin 2) n) := by
  unfold flatRows
  refine shapeCast_apply x shapeCasts_S65536x2x256_S65536x512 (ix2 b (lo n)) (ix3 b (0 : Fin 2) n) ?_
  rw [Shape.rowMajor_val_three, Shape.rowMajor_val_two]
  show (b.val * 2 + 0) * 256 + n.val = b.val * 512 + n.val
  omega

theorem flatRows_hi (x : FVec Ideal S65536x2x256 .f32) (b : Fin 65536) (n : Fin 256) :
    flatRows x (ix2 b (hi n)) = x (ix3 b (1 : Fin 2) n) := by
  unfold flatRows
  refine shapeCast_apply x shapeCasts_S65536x2x256_S65536x512 (ix2 b (hi n)) (ix3 b (1 : Fin 2) n) ?_
  rw [Shape.rowMajor_val_three, Shape.rowMajor_val_two]
  show (b.val * 2 + 1) * 256 + n.val = b.val * 512 + (256 + n.val)
  omega

/-! ## The weights at an index -/

theorem weights_lo_lo (cs sn : FVec Ideal S256x256 .f32) (n q : Fin 256) :
    weights cs sn (ix2 (lo n) (lo q)) = cs (ix2 q n) := by
  unfold weights
  rw [truncf_apply]
  refine (concatenate_pair_apply_left (t := S512x512) (s₁ := S256x512) (s₂ := S256x512) (0 : Fin 2) _ _ concatenates_S256x512_S256x512_S512x512_d0 (ix2 (lo n) (lo q)) rfl (ix2 n (lo q))
    (fun b => match b with | ⟨0, _⟩ => rfl | ⟨1, _⟩ => rfl)).trans ?_
  refine (concatenate_pair_apply_left (t := S256x512) (s₁ := S256x256) (s₂ := S256x256) (1 : Fin 2) _ _ concatenates_S256x256_S256x256_S256x512_d1 (ix2 n (lo q)) rfl (ix2 n q)
    (fun b => match b with | ⟨0, _⟩ => rfl | ⟨1, _⟩ => rfl)).trans ?_
  exact transpose_ix2_apply cs _ n q

theorem weights_lo_hi (cs sn : FVec Ideal S256x256 .f32) (n q : Fin 256) :
    weights cs sn (ix2 (lo n) (hi q)) = sn (ix2 q n) := by
  unfold weights
  rw [truncf_apply]
  refine (concatenate_pair_apply_left (t := S512x512) (s₁ := S256x512) (s₂ := S256x512) (0 : Fin 2) _ _ concatenates_S256x512_S256x512_S512x512_d0 (ix2 (lo n) (hi q)) rfl (ix2 n (hi q))
    (fun b => match b with | ⟨0, _⟩ => rfl | ⟨1, _⟩ => rfl)).trans ?_
  refine (concatenate_pair_apply_right (t := S256x512) (s₁ := S256x256) (s₂ := S256x256) (1 : Fin 2) _ _ concatenates_S256x256_S256x256_S256x512_d1 (ix2 n (hi q)) rfl rfl (ix2 n q)
    (fun b hb => match b, hb with | ⟨0, _⟩, _ => rfl | ⟨1, _⟩, hb => absurd rfl hb)
    (by show q.val + 256 = 256 + q.val; omega)).trans ?_
  exact transpose_ix2_apply sn _ n q

theorem weights_hi_lo (cs sn : FVec Ideal S256x256 .f32) (n q : Fin 256) :
    weights cs sn (ix2 (hi n) (lo q)) = -sn (ix2 q n) := by
  unfold weights
  rw [truncf_apply]
  refine (concatenate_pair_apply_right (t := S512x512) (s₁ := S256x512) (s₂ := S256x512) (0 : Fin 2) _ _ concatenates_S256x512_S256x512_S512x512_d0 (ix2 (hi n) (lo q)) rfl rfl (ix2 n (lo q))
    (fun b hb => match b, hb with | ⟨0, _⟩, hb => absurd rfl hb | ⟨1, _⟩, _ => rfl)
    (by show n.val + 256 = 256 + n.val; omega)).trans ?_
  refine (concatenate_pair_apply_left (t := S256x512) (s₁ := S256x256) (s₂ := S256x256) (1 : Fin 2) _ _ concatenates_S256x256_S256x256_S256x512_d1 (ix2 n (lo q)) rfl (ix2 n q)
    (fun b => match b with | ⟨0, _⟩ => rfl | ⟨1, _⟩ => rfl)).trans ?_
  show -(transpose S256x256 [1, 0] sn transposes_S256x256_S256x256_1_0 (ix2 n q)) = _
  rw [transpose_ix2_apply]

theorem weights_hi_hi (cs sn : FVec Ideal S256x256 .f32) (n q : Fin 256) :
    weights cs sn (ix2 (hi n) (hi q)) = cs (ix2 q n) := by
  unfold weights
  rw [truncf_apply]
  refine (concatenate_pair_apply_right (t := S512x512) (s₁ := S256x512) (s₂ := S256x512) (0 : Fin 2) _ _ concatenates_S256x512_S256x512_S512x512_d0 (ix2 (hi n) (hi q)) rfl rfl (ix2 n (hi q))
    (fun b hb => match b, hb with | ⟨0, _⟩, hb => absurd rfl hb | ⟨1, _⟩, _ => rfl)
    (by show n.val + 256 = 256 + n.val; omega)).trans ?_
  refine (concatenate_pair_apply_right (t := S256x512) (s₁ := S256x256) (s₂ := S256x256) (1 : Fin 2) _ _ concatenates_S256x256_S256x256_S256x512_d1 (ix2 n (hi q)) rfl rfl (ix2 n q)
    (fun b hb => match b, hb with | ⟨0, _⟩, _ => rfl | ⟨1, _⟩, hb => absurd rfl hb)
    (by show q.val + 256 = 256 + q.val; omega)).trans ?_
  exact transpose_ix2_apply cs _ n q

end Cert.KernelIdeal.Prefix

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.Body.lean ====
/-
  What the kernel body computes on one block. The body loads a [2048, 512] block of flattened rows and the whole
  [512, 512] weight matrix, narrows the rows to bf16 (the identity on ideal values), multiplies the two into a zero
  accumulator and stores the product. So the stored value at (p, q) is the sum over the 512 contracted positions c of the
  block's entry (p, c) times the weight (c, q).
-/
import proofs.«137486_j31258771980926_2_alg».proof.Proof.Gen.KernelIdeal.Skeleton
import proofs.«137486_j31258771980926_2_alg».proof.Proof.LibMat
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The stored product at (p, q): the row p of the block against the column q of the weights. -/
theorem pay_apply (x0 : Vec Ideal S2048x512 .f32) (x1 : Vec Ideal S512x512 .bf16) (p : Fin 2048) (q : Fin 512) :
    k0_pay1 (F := Ideal) x0 x1 (ix2 p q) = ∑ c : Fin 512, x0 (ix2 p c) * x1 (ix2 c q) := by
  unfold k0_pay1
  rw [shapeCast_self, shapeCast_self]
  exact Cert.LibMat.matmul_plain_apply dot_S2048x512_S512x512_S2048x512_1_0_0_1_n_n_wf none _ _ p q

end Cert.KernelIdeal.Body

end
-- ==== Proof.Blocks.lean ====
/-
  The kernel's output array after the run is ONE matrix product: the [65536, 512] array of flattened rows times the
  [512, 512] weights.

  The grid has 32 points. Point t reads rows 2048·t … 2048·t + 2047 of the rows array and the whole weight matrix, and
  writes the product of the two back to the same rows of the output. A product's entry (r, q) depends on row r of the
  left factor only, so the block product IS the matching block of the whole product; and the 32 row blocks tile the
  output, row r lying in block r / 2048.
-/
import proofs.«137486_j31258771980926_2_alg».proof.Proof.Gen.KernelIdeal.Frame
import proofs.«137486_j31258771980926_2_alg».proof.Proof.Body
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The product of a [65536, 512] array with a [512, 512] array, entry by entry. -/
def product (R : S65536x512.Idx → EReal) (W : S512x512.Idx → EReal) : S65536x512.Idx → EReal := fun i =>
  ∑ k : Fin 512, R (ix2 (⟨(i 0).val, (i 0).isLt⟩ : Fin 65536) k) * W (ix2 k (⟨(i 1).val, (i 1).isLt⟩ : Fin 512))

/-- The stored block at an index of the block: its row against the weights' column. -/
theorem pay_block (x0 : Vec Ideal S2048x512 .f32) (x1 : Vec Ideal S512x512 .bf16) (j : S2048x512.Idx) :
    k0_pay1 (F := Ideal) x0 x1 j
      = ∑ k : Fin 512, x0 (ix2 (⟨(j 0).val, (j 0).isLt⟩ : Fin 2048) k) * x1 (ix2 k (⟨(j 1).val, (j 1).isLt⟩ : Fin 512)) := by
  obtain ⟨p, q, rfl⟩ : ∃ (p : Fin 2048) (q : Fin 512), j = ix2 p q := ⟨j 0, j 1, eq_ix2 j⟩
  exact Body.pay_apply x0 x1 p q

/-- Where each window's block sits at point t: the rows' and the output's at row block t, the weights' at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dats m 0 c).flushed 2 t
      = ((cfg0.win 2).blk t).view.read (Elt Ideal) (product (V m c main_v7) (V m c main_v6)) := by
  show (cfg0.win 2).cut (grid0.coords t) ((dats m 0 c).after 2 t) = _
  rw [after0_2]
  unfold out0_2
  rw [View.canon_unit_zero zero_offsets]
  simp only [View.ld_unit_zero (S := S2048x512) zero_offsets, View.ld_unit_zero (S := S512x512) zero_offsets]
  obtain ⟨e00, e01, e10, e11, e20, e21⟩ := block_indices t
  funext j
  show k0_pay1 (F := Ideal) (iblk m c 0 t) (iblk m c 1 t) j
    = product (V m c main_v7) (V m c main_v6) (((cfg0.win 2).blk t).view.emb j)
  refine (pay_block (iblk m c 0 t) (iblk m c 1 t) j).trans ?_
  unfold product
  refine Finset.sum_congr rfl fun k _ => ?_
  have hk : k.val < 512 := k.isLt
  have hA : (iblk m c 0 t : Vec Ideal S2048x512 .f32) (ix2 (⟨(j 0).val, (j 0).isLt⟩ : Fin 2048) k)
      = V m c main_v7 (ix2 (⟨((((cfg0.win 2).blk t).view.emb j) 0).val, ((((cfg0.win 2).blk t).view.emb j) 0).isLt⟩ : Fin 65536) k) := by
    show V m c main_v7 (((cfg0.win 0).blk t).view.emb (ix2 (⟨(j 0).val, (j 0).isLt⟩ : Fin 2048) k)) = _
    refine congrArg (V m c main_v7) (funext fun a => Fin.ext ?_)
    match a with
    | ⟨0, _⟩ => show win0_0.index t (0 : Fin 2) * 2048 + 1 * (j 0).val = win0_2.index t (0 : Fin 2) * 2048 + 1 * (j 0).val; rw [e00, e20]
    | ⟨1, _⟩ => show win0_0.index t (1 : Fin 2) * 512 + 1 * k.val = k.val; rw [e01]; omega
  have hB : (iblk m c 1 t : Vec Ideal S512x512 .bf16) (ix2 k (⟨(j 1).val, (j 1).isLt⟩ : Fin 512))
      = V m c main_v6 (ix2 k (⟨((((cfg0.win 2).blk t).view.emb j) 1).val, ((((cfg0.win 2).blk t).view.emb j) 1).isLt⟩ : Fin 512)) := by
    show V m c main_v6 (((cfg0.win 1).blk t).view.emb (ix2 k (⟨(j 1).val, (j 1).isLt⟩ : Fin 512))) = _
    refine congrArg (V m c main_v6) (funext fun a => Fin.ext ?_)
    match a with
    | ⟨0, _⟩ => show win0_1.index t (0 : Fin 2) * 512 + 1 * k.val = k.val; rw [e10]; omega
    | ⟨1, _⟩ => show win0_1.index t (1 : Fin 2) * 512 + 1 * (j 1).val = win0_2.index t (1 : Fin 2) * 512 + 1 * (j 1).val; rw [e11, e21]
  rw [hA, hB]

/-- An index of the output is in point t's block iff each coordinate is in the block's range on its axis. -/
theorem mem_block (t : Fin cfg0.N) (i : S65536x512.Idx) :
    i ∈ ((cfg0.win 2).blk t).view.set
      ↔ ∀ a : Fin 2, win0_2.index t a * S2048x512.size a ≤ (i a).val ∧ (i a).val < win0_2.index t a * S2048x512.size a + S2048x512.size a := by
  show i ∈ ((View.whole main_v8).slice (win0_2.rect t)).set ↔ _
  rw [View.set_slice_whole, Rect.mem_set_unit]
  exact Iff.rfl

/-- Row r of the output lies in the block of point r / 2048, which writes back. -/
theorem cover (i : S65536x512.Idx) : ∃ t : Fin cfg0.N, (cfg0.win 2).flush t = true ∧ i ∈ ((cfg0.win 2).blk t).view.set := by
  have h0 : (i 0).val < 65536 := (i 0).isLt
  have h1 : (i 1).val < 512 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨e00, e01, e10, e11, e20, e21⟩ := block_indices t
  refine ⟨t, flush0_2 t, (mem_block t i).2 fun a => ?_⟩
  match a with
  | ⟨0, _⟩ =>
    show win0_2.index t (0 : Fin 2) * 2048 ≤ (i 0).val ∧ (i 0).val < win0_2.index t (0 : Fin 2) * 2048 + 2048
    rw [e20, ht]; omega
  | ⟨1, _⟩ =>
    show win0_2.index t (1 : Fin 2) * 512 ≤ (i 1).val ∧ (i 1).val < win0_2.index t (1 : Fin 2) * 512 + 512
    rw [e21]; omega

/-- The output array after the last point: the whole product of the two arrays the region found. -/
theorem final (c : Dev nD) : (dats m 0 c).arrAt 2 cfg0.N = product (V m c main_v7) (V m c main_v6) :=
  (dats m 0 c).arrAt_eq_of_cover 2 (product (V m c main_v7) (V m c main_v6)) (fun t _ => flushed_eq m c t) cover

end Cert.KernelIdeal.Blocks

end
-- ==== Proof.Bridge.lean ====
/-
  The product the kernel computes is the transform.

  Entry (b, j) of the product is the sum over the 512 positions of row b of the flattened input against column j of the
  block matrix. Column j < 256 holds C's row j over the first half and −S's row j over the second (a real part); column
  256 + q holds S's row q and C's row q (an imaginary part). With the flattened row's halves being the two channels,
  the two column laws of the transform give `dft`. The real-part columns use that the imaginary channel and the sine
  table hold real numbers.
-/
import proofs.«137486_j31258771980926_2_alg».proof.Proof.Prefix
import proofs.«137486_j31258771980926_2_alg».proof.Proof.Blocks
import proofs.«137486_j31258771980926_2_alg».proof.Proof.DftLaw

noncomputable section

open scoped BigOperators

namespace Cert.KernelIdeal.Bridge

open Cert.KernelIdeal Idealize.ShloMosaic Idealize.ShloMosaic.ValueIdx Cert.DftLaw Cert.KernelIdeal.Prefix Cert.KernelIdeal.Blocks

theorem product_eq_dft (x : FVec Ideal S65536x2x256 .f32) (cs sn : FVec Ideal S256x256 .f32)
    (hx : ∀ i, IsReal (x i)) (hs : ∀ i, IsReal (sn i)) :
    product (flatRows x) (weights cs sn) = dft x cs sn := by
  funext i
  have h1 : (i 1).val < 512 := (i 1).isLt
  unfold product dft
  dsimp only
  by_cases h : (i 1).val < 256
  · rw [dif_pos h]
    exact real_column (fun k => flatRows x (ix2 (⟨(i 0).val, (i 0).isLt⟩ : Fin 65536) k))
      (fun k => weights cs sn (ix2 k (lo (⟨(i 1).val, h⟩ : Fin 256))))
      (fun n => x (ix3 (⟨(i 0).val, (i 0).isLt⟩ : Fin 65536) (0 : Fin 2) n))
      (fun n => x (ix3 (⟨(i 0).val, (i 0).isLt⟩ : Fin 65536) (1 : Fin 2) n))
      (fun n => cs (ix2 (⟨(i 1).val, h⟩ : Fin 256) n)) (fun n => sn (ix2 (⟨(i 1).val, h⟩ : Fin 256) n))
      (fun n => flatRows_lo x _ n) (fun n => flatRows_hi x _ n)
      (fun n => weights_lo_lo cs sn n _) (fun n => weights_hi_lo cs sn n _) (fun n => hx _) (fun n => hs _)
  · rw [dif_neg h]
    have hcol : (⟨(i 1).val, (i 1).isLt⟩ : Fin 512) = hi (⟨(i 1).val - 256, by omega⟩ : Fin 256) :=
      Fin.ext (by show (i 1).val = 256 + ((i 1).val - 256); omega)
    simp only [hcol]
    exact imag_column (fun k => flatRows x (ix2 (⟨(i 0).val, (i 0).isLt⟩ : Fin 65536) k))
      (fun k => weights cs sn (ix2 k (hi (⟨(i 1).val - 256, by omega⟩ : Fin 256))))
      (fun n => x (ix3 (⟨(i 0).val, (i 0).isLt⟩ : Fin 65536) (0 : Fin 2) n))
      (fun n => x (ix3 (⟨(i 0).val, (i 0).isLt⟩ : Fin 65536) (1 : Fin 2) n))
      (fun n => cs (ix2 (⟨(i 1).val - 256, by omega⟩ : Fin 256) n)) (fun n => sn (ix2 (⟨(i 1).val - 256, by omega⟩ : Fin 256) n))
      (fun n => flatRows_lo x _ n) (fun n => flatRows_hi x _ n)
      (fun n => weights_lo_hi cs sn n _) (fun n => weights_hi_hi cs sn n _)

end Cert.KernelIdeal.Bridge

end
-- ==== Proof.Tail.lean ====
/-
  After the region one host line remains: the [65536, 512] output is given a trailing axis of extent one. So the
  program's result is that broadcast of the whole product, and the three argument arrays end as they were launched.
-/
import proofs.«137486_j31258771980926_2_alg».proof.Proof.Gen.KernelIdeal.Frame
import proofs.«137486_j31258771980926_2_alg».proof.Proof.Blocks
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo Cert.KernelIdeal.Blocks

variable (m : (ℓ : Loc nD τ sig) → Buf (Elt Ideal) ℓ) (ρ : Dev nD → PrngReg)

/-- The result buffer after the last host line: the output array with a unit axis appended. -/
theorem result_eq (c : Dev nD) :
    Pipeline.afterTail₀ cfgs (dats m) 0 (V0 m) [hostOps1] c main_v9
      = broadcastInDim S65536x512x1 ![0, 1] bcast_S65536x512_S65536x512x1_0_1 (product (V m c main_v7) (V m c main_v6)) := by
  unfold Pipeline.afterTail₀
  show StableHlo.after hostOps1 _ (Proc.devRef .tc main_v9) = _
  after_results
  exact congrArg (broadcastInDim S65536x512x1 ![0, 1] bcast_S65536x512_S65536x512x1_0_1)
    ((Pipeline.withArrays_arr spec0 launch0.win.arr_inj c (V0 m c) (fun w => (dats m 0 c).arrAt w cfg0.N) 2).trans (final m c))

/-- The kernel's run, read: the result at the broadcast product, the arguments unchanged. -/
theorem run : θ_run defs (onTc (τ := τ) (main (F := Ideal))) ⟨m, fun _ => 0, ρ⟩ fun r => ∀ c : Dev nD,
      r.2.mem ((c.tc : Thread nD τ).loc main_v9)
        = broadcastInDim S65536x512x1 ![0, 1] bcast_S65536x512_S65536x512x1_0_1 (product (V m c main_v7) (V m c main_v6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Tail

end
-- ==== Proof.RefRead.lean ====
/-
  The reference's result, before its last broadcast, is the transform `dft` of the argument arrays.

  The reference cuts the two channels out of the input (a slice and a reshape each: row b of a channel is row b of the
  input at that channel), multiplies each against each table contracting the position n, and joins
  re = xr·C − xi·S and im = xi·C + xr·S along the columns. Read at an index this is `dft` term by term; no law of
  arithmetic is used, only where each entry sits.
-/
import proofs.«137486_j31258771980926_2_alg».proof.Proof.Gen.ReferenceIdeal.Read
import proofs.«137486_j31258771980926_2_alg».proof.Proof.DftLaw
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.DftLaw

/-- Row b of the real channel is row b of the input at channel 0. -/
theorem chan0 (x : (⟨S65536x2x256, .f32⟩ : BufTy).Contents (Elt Ideal)) (b : Fin 65536) (k : Fin 256) :
    val_main_v1 (F := Ideal) x (ix2 b k) = x (ix3 b (0 : Fin 2) k) := by
  rw [val_main_v1_apply, val_main_v0_apply]
  refine congrArg x (funext fun a => Fin.ext ?_)
  have hk := k.isLt
  match a with
  | ⟨0, _⟩ => show (b.val * 256 + k.val) / 256 = b.val; omega
  | ⟨1, _⟩ => rfl
  | ⟨2, _⟩ => show (b.val * 256 + k.val) % 256 = k.val; omega

/-- Row b of the imaginary channel is row b of the input at channel 1. -/
theorem chan1 (x : (⟨S65536x2x256, .f32⟩ : BufTy).Contents (Elt Ideal)) (b : Fin 65536) (k : Fin 256) :
    val_main_v3 (F := Ideal) x (ix2 b k) = x (ix3 b (1 : Fin 2) k) := by
  rw [val_main_v3_apply, val_main_v2_apply]
  refine congrArg x (funext fun a => Fin.ext ?_)
  have hk := k.isLt
  match a with
  | ⟨0, _⟩ => show (b.val * 256 + k.val) / 256 = b.val; omega
  | ⟨1, _⟩ => rfl
  | ⟨2, _⟩ => show (b.val * 256 + k.val) % 256 = k.val; omega

/-- The four products at (b, q): a channel's row b against a table's row q, over the position. -/
theorem re_cos (x : (⟨S65536x2x256, .f32⟩ : BufTy).Contents (Elt Ideal)) (cs : (⟨S256x256, .f32⟩ : BufTy).Contents (Elt Ideal))
    (b : Fin 65536) (q : Fin 256) :
    val_main_v4 (F := Ideal) x cs (ix2 b q) = ∑ k : Fin 256, x (ix3 b (0 : Fin 2) k) * cs (ix2 q k) := by
  rw [val_main_v4_apply]
  refine Finset.sum_congr rfl fun k _ => ?_
  have el : lidx_main_v4 (ix2 b q) k = ix2 b k := funext fun a => Fin.ext (by match a with | ⟨0, _⟩ => rfl | ⟨1, _⟩ => rfl)
  have er : ridx_main_v4 (ix2 b q) k = ix2 q k := funext fun a => Fin.ext (by match a with | ⟨0, _⟩ => rfl | ⟨1, _⟩ => rfl)
  rw [el, er, chan0]

theorem im_sin (x : (⟨S65536x2x256, .f32⟩ : BufTy).Contents (Elt Ideal)) (sn : (⟨S256x256, .f32⟩ : BufTy).Contents (Elt Ideal))
    (b : Fin 65536) (q : Fin 256) :
    val_main_v5 (F := Ideal) x sn (ix2 b q) = ∑ k : Fin 256, x (ix3 b (1 : Fin 2) k) * sn (ix2 q k) := by
  rw [val_main_v5_apply]
  refine Finset.sum_congr rfl fun k _ => ?_
  have el : lidx_main_v5 (ix2 b q) k = ix2 b k := funext fun a => Fin.ext (by match a with | ⟨0, _⟩ => rfl | ⟨1, _⟩ => rfl)
  have er : ridx_main_v5 (ix2 b q) k = ix2 q k := funext fun a => Fin.ext (by match a with | ⟨0, _⟩ => rfl | ⟨1, _⟩ => rfl)
  rw [el, er, chan1]

theorem im_cos (x : (⟨S65536x2x256, .f32⟩ : BufTy).Contents (Elt Ideal)) (cs : (⟨S256x256, .f32⟩ : BufTy).Contents (Elt Ideal))
    (b : Fin 65536) (q : Fin 256) :
    val_main_v7 (F := Ideal) x cs (ix2 b q) = ∑ k : Fin 256, x (ix3 b (1 : Fin 2) k) * cs (ix2 q k) := by
  rw [val_main_v7_apply]
  refine Finset.sum_congr rfl fun k _ => ?_
  have el : lidx_main_v7 (ix2 b q) k = ix2 b k := funext fun a => Fin.ext (by match a with | ⟨0, _⟩ => rfl | ⟨1, _⟩ => rfl)
  have er : ridx_main_v7 (ix2 b q) k = ix2 q k := funext fun a => Fin.ext (by match a with | ⟨0, _⟩ => rfl | ⟨1, _⟩ => rfl)
  rw [el, er, chan1]

theorem re_sin (x : (⟨S65536x2x256, .f32⟩ : BufTy).Contents (Elt Ideal)) (sn : (⟨S256x256, .f32⟩ : BufTy).Contents (Elt Ideal))
    (b : Fin 65536) (q : Fin 256) :
    val_main_v8 (F := Ideal) x sn (ix2 b q) = ∑ k : Fin 256, x (ix3 b (0 : Fin 2) k) * sn (ix2 q k) := by
  rw [val_main_v8_apply]
  refine Finset.sum_congr rfl fun k _ => ?_
  have el : lidx_main_v8 (ix2 b q) k = ix2 b k := funext fun a => Fin.ext (by match a with | ⟨0, _⟩ => rfl | ⟨1, _⟩ => rfl)
  have er : ridx_main_v8 (ix2 b q) k = ix2 q k := funext fun a => Fin.ext (by match a with | ⟨0, _⟩ => rfl | ⟨1, _⟩ => rfl)
  rw [el, er, chan0]

/-- The joined array is the transform: the first 256 columns the real parts, the last 256 the imaginary parts. -/
theorem joined_eq_dft (x : (⟨S65536x2x256, .f32⟩ : BufTy).Contents (Elt Ideal)) (cs sn : (⟨S256x256, .f32⟩ : BufTy).Contents (Elt Ideal)) :
    val_main_v10 (F := Ideal) x cs sn = dft x cs sn := by
  funext i
  have h1 : (i 1).val < 512 := (i 1).isLt
  by_cases h : (i 1).val < 256
  · have e : val_main_v10 (F := Ideal) x cs sn i
        = val_main_v6 (F := Ideal) x cs sn (ix2 (⟨(i 0).val, (i 0).isLt⟩ : Fin 65536) (⟨(i 1).val, h⟩ : Fin 256)) := by
      unfold val_main_v10
      exact concatenate_pair_apply_left (t := S65536x512) (s₁ := S65536x256) (s₂ := S65536x256) (1 : Fin 2) _ _
        concatenates_S65536x256_S65536x256_S65536x512_d1 i rfl _ (fun b => match b with | ⟨0, _⟩ => rfl | ⟨1, _⟩ => rfl)
    rw [e, val_main_v6_apply, re_cos, im_sin]
    unfold dft
    dsimp only
    rw [dif_pos h]
    rfl
  · have e : val_main_v10 (F := Ideal) x cs sn i
        = val_main_v9 (F := Ideal) x cs sn (ix2 (⟨(i 0).val, (i 0).isLt⟩ : Fin 65536) (⟨(i 1).val - 256, by omega⟩ : Fin 256)) := by
      unfold val_main_v10
      exact concatenate_pair_apply_right (t := S65536x512) (s₁ := S65536x256) (s₂ := S65536x256) (1 : Fin 2) _ _
        concatenates_S65536x256_S65536x256_S65536x512_d1 i rfl rfl _
        (fun b hb => match b, hb with | ⟨0, _⟩, _ => rfl | ⟨1, _⟩, hb => absurd rfl hb)
        (by show ((i 1).val - 256) + 256 = (i 1).val; omega)
    rw [e, val_main_v9_apply, im_cos, re_sin]
    unfold dft
    dsimp only
    rw [dif_neg h]
    rfl

end Cert.ReferenceIdeal.RefValue

end
-- ==== Proof.Finite.lean ====
/-
  The precondition read entry by entry: every entry of the three argument arrays is a real number.

  The precondition is the conjunction of three tests "all |a| < +∞", one per array. A conjunction that is 1 has both
  parts 1; an "all" that is 1 had a 1 at every index; and |a| = max a (−a) below +∞ leaves a neither +∞ nor −∞.
-/
import proofs.«137486_j31258771980926_2_alg».proof.Proof.Gen.Pre_finite_inputs
import proofs.«137486_j31258771980926_2_alg».proof.Proof.DftLaw
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx Cert.DftLaw

instance : Subsingleton S_.Idx := ⟨fun a b => funext fun d => d.elim0⟩

/-- The f32 pattern with all exponent bits set and no fraction bit denotes +∞. -/
theorem inf_word : Ideal.ofBits .f32 0x7F800000#32 = (⊤ : EReal) := by
  simp [Ideal.ofBits, Ideal.ieee]

/-- An extended real whose absolute value is below +∞ is a real number. -/
theorem isReal_of_abs_lt (a : EReal) (h : Ideal.cmp .olt (max a (-a)) (Ideal.ofBits .f32 0x7F800000#32) = 1#1) : IsReal a := by
  rw [inf_word] at h
  have hlt : max a (-a) < ⊤ := by
    by_contra hn
    simp [Ideal.cmp, hn] at h
  induction a using EReal.rec with
  | bot => simp at hlt
  | coe r => exact ⟨r, rfl⟩
  | top => simp at hlt

/-- Under the precondition every entry of every argument is real. -/
theorem reals_of_pre (x : FVec Ideal S65536x2x256 .f32) (cs sn : FVec Ideal S256x256 .f32)
    (h : fn (F := Ideal) x cs sn = fun _ => 1#1) :
    (∀ i, IsReal (x i)) ∧ (∀ i, IsReal (cs i)) ∧ (∀ i, IsReal (sn i)) := by
  have h0 := congrFun h ix0
  dsimp only [fn] at h0
  obtain ⟨h01, h2⟩ := IntOp.andi_eq_one.1 h0
  obtain ⟨hx, h1⟩ := IntOp.andi_eq_one.1 h01
  refine ⟨fun i => ?_, fun i => ?_, fun i => ?_⟩
  · exact isReal_of_abs_lt _ (Host.reduce_andi_all _ _ _ _ ix0 hx i)
  · exact isReal_of_abs_lt _ (Host.reduce_andi_all _ _ _ _ ix0 h1 i)
  · exact isReal_of_abs_lt _ (Host.reduce_andi_all _ _ _ _ ix0 h2 i)

end Cert.Pre_finite_inputs.Finite

end
-- ==== Proof.lean ====
/-
  A batched 256-point discrete Fourier transform: each of 65536 rows carries a real and an imaginary channel of length
  256, and the result row holds the 256 real parts followed by the 256 imaginary parts,
      re q = Σ_n xr n · C q n − Σ_n xi n · S q n,        im q = Σ_n xi n · C q n + Σ_n xr n · S q n,
  for the cosine table C and the sine table S given as arguments.

  The reference computes the four products separately and joins them. The kernel flattens each row to xr ++ xi and
  multiplies once by the 512 × 512 block matrix [[Cᵀ, Sᵀ], [−Sᵀ, Cᵀ]], 2048 rows per grid point. Over the extended
  reals the two agree because (a) a sum over 512 positions is the sum of its two halves, (b) a block of a matrix product
  is the product of the block of rows, the 32 row blocks tiling the output, and (c) for REAL entries the sign of −S leaves
  the sum, Σ xi·(−S) = −Σ xi·S, and a + (−b) = a − b. Step (c) is where the precondition — every input entry finite —
  is used; nothing else needs it. A change of float format is the identity on ideal values, so the narrowing to bf16
  plays no part.

  Modules: DftLaw (the transform and the laws (a), (c)), Body (the stored block as a sum), Prefix (the host lines before
  the kernel: the block matrix and the flattened rows, read at an index), Blocks ((b): the output array is one whole
  product), Bridge (that product is the transform), Tail (the last host line and the kernel's run), RefRead (the
  reference's joined array is the transform), Finite (the precondition entry by entry), LibMat (a plain matrix product
  into a zero accumulator read at an index).
-/
import proofs.«137486_j31258771980926_2_alg».proof.Defs
import proofs.«137486_j31258771980926_2_alg».proof.Proof.Gen.Kernel
import proofs.«137486_j31258771980926_2_alg».proof.Proof.Gen.Kernel.Skeleton
import proofs.«137486_j31258771980926_2_alg».proof.Proof.Gen.Kernel.Launch
import proofs.«137486_j31258771980926_2_alg».proof.Proof.Gen.Kernel.Points
import proofs.«137486_j31258771980926_2_alg».proof.Proof.Gen.Kernel.Frame
import proofs.«137486_j31258771980926_2_alg».proof.Proof.Gen.KernelIdeal
import proofs.«137486_j31258771980926_2_alg».proof.Proof.Gen.KernelIdeal.Skeleton
import proofs.«137486_j31258771980926_2_alg».proof.Proof.Gen.KernelIdeal.Launch
import proofs.«137486_j31258771980926_2_alg».proof.Proof.Gen.KernelIdeal.Points
import proofs.«137486_j31258771980926_2_alg».proof.Proof.Gen.KernelIdeal.Frame
import proofs.«137486_j31258771980926_2_alg».proof.Proof.Gen.ReferenceIdeal
import proofs.«137486_j31258771980926_2_alg».proof.Proof.Gen.ReferenceIdeal.Run
import proofs.«137486_j31258771980926_2_alg».proof.Proof.Gen.ReferenceIdeal.Read
import proofs.«137486_j31258771980926_2_alg».proof.Proof.Gen.Pre_finite_inputs
import proofs.«137486_j31258771980926_2_alg».proof.Proof.Bridge
import proofs.«137486_j31258771980926_2_alg».proof.Proof.Tail
import proofs.«137486_j31258771980926_2_alg».proof.Proof.RefRead
import proofs.«137486_j31258771980926_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the transform of the arguments, with a unit axis appended: the kernel's one product is the
    transform for real entries, the reference's joined products are the transform as they stand. -/
theorem algebraic : Cert.algebraic_KernelIdeal_ReferenceIdeal := by
  intro m ρ m' ρ' hpre hagree
  refine ⟨fun c => broadcastInDim Cert.KernelIdeal.S65536x512x1 ![0, 1] Cert.KernelIdeal.Gen.bcast_S65536x512_S65536x512x1_0_1
      (Cert.DftLaw.dft (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩) (Cert.KernelIdeal.Tail.run m ρ)
    obtain ⟨hx, -, hs⟩ := Cert.Pre_finite_inputs.Finite.reals_of_pre _ _ _ (hpre c)
    rw [Cert.KernelIdeal.Prefix.V_rows, Cert.KernelIdeal.Prefix.V_weights, Cert.KernelIdeal.Bridge.product_eq_dft _ _ _ hx hs]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq]
    unfold Cert.ReferenceIdeal.Read.val_main_v11
    rw [Cert.ReferenceIdeal.RefValue.joined_eq_dft, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
